-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S8x2048x4096 .f32) (main_arg1 : FVec F S4096x4096 .f32) (main_arg2 : FVec F S4096 .f32) (main_arg3 : FVec F S4096x16 .f32) (main_arg4 : FVec F S16x4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S8x2048x4096 : Shape := ⟨3, ![8, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S16384x4096 : Shape := ⟨2, ![16384, 4096]⟩
abbrev S1x4096 : Shape := ⟨2, ![1, 4096]⟩
abbrev S2048x512 : Shape := ⟨2, ![2048, 512]⟩
abbrev S512x2048 : Shape := ⟨2, ![512, 2048]⟩
abbrev S512x16 : Shape := ⟨2, ![512, 16]⟩
abbrev S16x2048 : Shape := ⟨2, ![16, 2048]⟩
abbrev S1x2048 : Shape := ⟨2, ![1, 2048]⟩
abbrev S2048x2048 : Shape := ⟨2, ![2048, 2048]⟩
abbrev S2048x16 : Shape := ⟨2, ![2048, 16]⟩

abbrev nBuf : Space → Nat
  | .hbm => 10
  | .vmem => 13
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S16384x4096, .f32⟩
  | .hbm, ⟨6, _⟩ => ⟨S1x4096, .f32⟩
  | .hbm, ⟨7, _⟩ => ⟨S4096x4096, .bf16⟩
  | .hbm, ⟨8, _⟩ => ⟨S16384x4096, .f32⟩
  | .hbm, ⟨9, _⟩ => ⟨S8x2048x4096, .f32⟩
  | .local _ .vmem, ⟨0, _⟩ => ⟨S2048x512, .f32⟩
  | .local _ .vmem, ⟨1, _⟩ => ⟨S2048x512, .f32⟩
  | .local _ .vmem, ⟨2, _⟩ => ⟨S512x2048, .bf16⟩
  | .local _ .vmem, ⟨3, _⟩ => ⟨S512x2048, .bf16⟩
  | .local _ .vmem, ⟨4, _⟩ => ⟨S512x16, .f32⟩
  | .local _ .vmem, ⟨5, _⟩ => ⟨S512x16, .f32⟩
  | .local _ .vmem, ⟨6, _⟩ => ⟨S16x2048, .f32⟩
  | .local _ .vmem, ⟨7, _⟩ => ⟨S16x2048, .f32⟩
  | .local _ .vmem, ⟨8, _⟩ => ⟨S1x2048, .f32⟩
  | .local _ .vmem, ⟨9, _⟩ => ⟨S1x2048, .f32⟩
  | .local _ .vmem, ⟨10, _⟩ => ⟨S2048x2048, .f32⟩
  | .local _ .vmem, ⟨11, _⟩ => ⟨S2048x2048, .f32⟩
  | .local _ .vmem, ⟨12, _⟩ => ⟨S2048x16, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S8x2048x4096_S16384x4096 : S8x2048x4096.ShapeCasts S16384x4096
  shapeCasts_S4096_S1x4096 : S4096.ShapeCasts S1x4096
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S2048x2048_S2048x2048 : S2048x2048.ShapeCasts S2048x2048
  inb_S512x16_S512x16_0_0 : ∀ a, (![0, 0] : Fin 2 → Nat) a + S512x16.size a ≤ S512x16.size a
  h_S512x16 : 0 < S512x16.numel
  inb_S16x2048_S16x2048_0_0 : ∀ a, (![0, 0] : Fin 2 → Nat) a + S16x2048.size a ≤ S16x2048.size a
  h_S16x2048 : 0 < S16x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  shapeCasts_S16384x4096_S8x2048x4096 : S16384x4096.ShapeCasts S8x2048x4096
  dot_S2048x512_S512x2048_S2048x2048_1_0_0_1_n_n_wf : DotDims.WF S2048x512 S512x2048 S2048x2048 [1] [0] [0] [1] [] []
  dot_S2048x512_S512x16_S2048x16_1_0_0_1_n_n_wf : DotDims.WF S2048x512 S512x16 S2048x16 [1] [0] [0] [1] [] []
  dot_S2048x16_S16x2048_S2048x2048_1_0_0_1_n_n_wf : DotDims.WF S2048x16 S16x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x4096.size a
  hwx0_0 : ∀ i : grid0.Coords, EltTy.bits .f32 = 32 ∨ (Rect.block (s := S16384x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .bf16 = 32 ∨ (Rect.block (s := S4096x4096) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S4096x16.size a
  hwx0_2 : ∀ i : grid0.Coords, EltTy.bits .f32 = 32 ∨ (Rect.block (s := S4096x16) S512x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x2048.size a ≤ S16x4096.size a
  hwx0_3 : ∀ i : grid0.Coords, EltTy.bits .f32 = 32 ∨ (Rect.block (s := S16x4096) S16x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x4096.size a
  hwx0_4 : ∀ i : grid0.Coords, EltTy.bits .f32 = 32 ∨ (Rect.block (s := S1x4096) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S16384x4096.size a
  hwx0_5 : ∀ i : grid0.Coords, EltTy.bits .f32 = 32 ∨ (Rect.block (s := S16384x4096) S2048x2048.size (cc0_transform_5 i) (hinb0_5 i)).WholeWords (EltTy.packing .f32)

variable [Facts₀]

def dot_S2048x512_S512x2048_S2048x2048_1_0_0_1_n_n : DotDims S2048x512 S512x2048 S2048x2048 where
  lhsContracting := [1]
  rhsContracting := [0]
  lhsNonContracting := [0]
  rhsNonContracting := [1]
  lhsBatch := []
  rhsBatch := []
  wf := dot_S2048x512_S512x2048_S2048x2048_1_0_0_1_n_n_wf
def dot_S2048x512_S512x16_S2048x16_1_0_0_1_n_n : DotDims S2048x512 S512x16 S2048x16 where
  lhsContracting := [1]
  rhsContracting := [0]
  lhsNonContracting := [0]
  rhsNonContracting := [1]
  lhsBatch := []
  rhsBatch := []
  wf := dot_S2048x512_S512x16_S2048x16_1_0_0_1_n_n_wf
def dot_S2048x16_S16x2048_S2048x2048_1_0_0_1_n_n : DotDims S2048x16 S16x2048 S2048x2048 where
  lhsContracting := [1]
  rhsContracting := [0]
  lhsNonContracting := [0]
  rhsNonContracting := [1]
  lhsBatch := []
  rhsBatch := []
  wf := dot_S2048x16_S16x2048_S2048x2048_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2048x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S8x2048x16 : Shape := ⟨3, ![8, 2048, 16]⟩
abbrev S1x1x4096 : Shape := ⟨3, ![1, 1, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S8x2048x16, .f32⟩
  | .hbm, ⟨6, _⟩ => ⟨S8x2048x4096, .f32⟩
  | .hbm, ⟨7, _⟩ => ⟨S8x2048x4096, .f32⟩
  | .hbm, ⟨8, _⟩ => ⟨S1x1x4096, .f32⟩
  | .hbm, ⟨9, _⟩ => ⟨S8x2048x4096, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  bcast_S_S8x2048x4096 : S_.BroadcastsInDim S8x2048x4096 (![] : Fin 0 → Fin S8x2048x4096.rank)
  dot_S8x2048x4096_S4096x16_S8x2048x16_2_0_01_1_n_n_wf : DotDims.WF S8x2048x4096 S4096x16 S8x2048x16 [2] [0] [0, 1] [1] [] []
  dot_S8x2048x16_S16x4096_S8x2048x4096_2_0_01_1_n_n_wf : DotDims.WF S8x2048x16 S16x4096 S8x2048x4096 [2] [0] [0, 1] [1] [] []
  dot_S8x2048x4096_S4096x4096_S8x2048x4096_2_0_01_1_n_n_wf : DotDims.WF S8x2048x4096 S4096x4096 S8x2048x4096 [2] [0] [0, 1] [1] [] []

variable [Facts₀]

def dot_S8x2048x4096_S4096x16_S8x2048x16_2_0_01_1_n_n : DotDims S8x2048x4096 S4096x16 S8x2048x16 where
  lhsContracting := [2]
  rhsContracting := [0]
  lhsNonContracting := [0, 1]
  rhsNonContracting := [1]
  lhsBatch := []
  rhsBatch := []
  wf := dot_S8x2048x4096_S4096x16_S8x2048x16_2_0_01_1_n_n_wf
def dot_S8x2048x16_S16x4096_S8x2048x4096_2_0_01_1_n_n : DotDims S8x2048x16 S16x4096 S8x2048x4096 where
  lhsContracting := [2]
  rhsContracting := [0]
  lhsNonContracting := [0, 1]
  rhsNonContracting := [1]
  lhsBatch := []
  rhsBatch := []
  wf := dot_S8x2048x16_S16x4096_S8x2048x4096_2_0_01_1_n_n_wf
def dot_S8x2048x4096_S4096x4096_S8x2048x4096_2_0_01_1_n_n : DotDims S8x2048x4096 S4096x4096 S8x2048x4096 where
  lhsContracting := [2]
  rhsContracting := [0]
  lhsNonContracting := [0, 1]
  rhsNonContracting := [1]
  lhsBatch := []
  rhsBatch := []
  wf := dot_S8x2048x4096_S4096x4096_S8x2048x4096_2_0_01_1_n_n_wf

class Facts : Prop extends Facts₀ where

variable [Facts]
-- ==== Proof.Pieces.lean ====
/-
  What one run of the kernel body leaves in the output block and in the down-projection accumulator, case by case.

  The body has three cases along the contraction axis.  At the first run both accumulators are zeroed and the run's
  products are added to the zeros; at a middle run the products are added to what the run before left; at the last run
  the same happens and then the bias and the scaled up-projection of the finished down-projection are added to the
  output block.  Each buffer is stored whole, so what it ends holding is the last store's value, with every value read
  back from a buffer being the value stored there before.
-/
import proofs.«174211_j69011534512954_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords)
  (arg3 : Memref sig .tc .vmem S2048x512 .f32) (harg3 : arg3.IsWhole)
  (arg4 : Memref sig .tc .vmem S512x2048 .bf16) (harg4 : arg4.IsWhole)
  (arg5 : Memref sig .tc .vmem S512x16 .f32) (harg5 : arg5.IsWhole)
  (arg6 : Memref sig .tc .vmem S16x2048 .f32) (harg6 : arg6.IsWhole)
  (arg7 : Memref sig .tc .vmem S1x2048 .f32) (harg7 : arg7.IsWhole)
  (arg8 : Memref sig .tc .vmem S2048x2048 .f32) (harg8 : arg8.IsWhole)
  (arg9 : Memref sig .tc .vmem S2048x16 .f32) (harg9 : arg9.IsWhole)
  (x0 : Vec F S2048x512 .f32) (x1 : Vec F S512x2048 .bf16) (x2 : Vec F S512x16 .f32)
  (x3 : Vec F S16x2048 .f32) (x4 : Vec F S1x2048 .f32) (xo5 : Vec F S2048x2048 .f32) (xs0 : Vec F S2048x16 .f32)

/-- First run, output block: the run's dense products added to the zero block. -/
theorem out_first (hc0 : cond0_0 i) (hc1 : ¬cond0_1 i) :
    out0_A_5 c i arg3 harg3 arg4 harg4 arg5 harg5 arg6 harg6 arg7 harg7 arg8 harg8 arg9 harg9 hc0 hc1 x0 x1 x2 x3 x4 = k0_pay4 x0 x1 (k0_pay1 (F := F)) := by
  unfold out0_A_5
  rw [View.read_writes_eq_canon _ _ _ (cover0_A_5 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S2048x2048) hz, View.readCov_unit_zero (S := S2048x2048) _ hz]
  simp only [View.readAt_eq_ld, harg3.read_unread, harg4.read_unread, View.ld_unit_zero (S := S2048x512) hz,
    View.ld_unit_zero (S := S512x2048) hz]

/-- First run, accumulator: the run's down-projection products added to the zero block. -/
theorem acc_first (hc0 : cond0_0 i) (hc1 : ¬cond0_1 i) :
    sout0_A_0 c i arg3 harg3 arg4 harg4 arg5 harg5 arg6 harg6 arg7 harg7 arg8 harg8 arg9 harg9 hc0 hc1 x0 x1 x2 x3 x4 = k0_pay5 x0 (k0_pay2 (F := F)) x2 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S2048x16) hz, View.readCov_unit_zero (S := S2048x16) _ hz]
  simp only [View.readAt_eq_ld, harg3.read_unread, harg5.read_unread, View.ld_unit_zero (S := S2048x512) hz,
    View.ld_unit_zero (S := S512x16) hz]

/-- Middle run, output block: the run's dense products added to what the block held. -/
theorem out_mid (hc0 : ¬cond0_0 i) (hc1 : ¬cond0_1 i) :
    out0_B_5 c i arg3 harg3 arg4 harg4 arg5 harg5 arg6 harg6 arg7 harg7 arg8 harg8 arg9 harg9 hc0 hc1 x0 x1 x2 x3 x4 xo5 xs0 = k0_pay4 x0 x1 xo5 := by
  unfold out0_B_5
  rw [View.read_writes_eq_canon _ _ _ (cover0_B_5 c i arg3 harg3 arg4 harg4 arg5 harg5 arg6 harg6 arg7 harg7 arg8 harg8 arg9 harg9 hc0 hc1 x0 x1 x2 x3 x4 xo5 xs0)]
  unfold kernelRun0_B
  dsimp only
  rw [View.canon_unit_zero hz]
  simp only [View.readAt_eq_ld, harg3.read_unread, harg4.read_unread, harg8.read_unread, View.ld_unit_zero (S := S2048x512) hz,
    View.ld_unit_zero (S := S512x2048) hz, View.ld_unit_zero (S := S2048x2048) hz]

/-- Middle run, accumulator: the run's down-projection products added to what it held. -/
theorem acc_mid (hc0 : ¬cond0_0 i) (hc1 : ¬cond0_1 i) :
    sout0_B_0 c i arg3 harg3 arg4 harg4 arg5 harg5 arg6 harg6 arg7 harg7 arg8 harg8 arg9 harg9 hc0 hc1 x0 x1 x2 x3 x4 xo5 xs0 = k0_pay5 x0 xs0 x2 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xo5 xs0)]
  unfold kernelRun0_B
  dsimp only
  rw [View.canon_unit_zero hz]
  simp only [View.readAt_eq_ld, harg3.read_unread, harg5.read_unread, harg9.read_unread, View.ld_unit_zero (S := S2048x512) hz,
    View.ld_unit_zero (S := S512x16) hz, View.ld_unit_zero (S := S2048x16) hz]

/-- Last run, accumulator: as at a middle run. -/
theorem acc_last (hc0 : ¬cond0_0 i) (hc1 : cond0_1 i) :
    sout0_C_0 c i arg3 harg3 arg4 harg4 arg5 harg5 arg6 harg6 arg7 harg7 arg8 harg8 arg9 harg9 hc0 hc1 x0 x1 x2 x3 x4 xo5 xs0 = k0_pay5 x0 xs0 x2 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xo5 xs0)]
  unfold kernelRun0_C
  dsimp only
  sl_unfold_words
  rw [View.canon_unit_zero hz]
  simp only [View.readAt_eq_ld, harg3.read_unread, harg5.read_unread, harg9.read_unread, View.ld_unit_zero (S := S2048x512) hz,
    View.ld_unit_zero (S := S512x16) hz, View.ld_unit_zero (S := S2048x16) hz]

/-- Last run, output block: the bias and the scaled up-projection of the finished accumulator, added to the block
    with this run's dense products already in it. -/
theorem out_last (hc0 : ¬cond0_0 i) (hc1 : cond0_1 i) :
    out0_C_5 c i arg3 harg3 arg4 harg4 arg5 harg5 arg6 harg6 arg7 harg7 arg8 harg8 arg9 harg9 hc0 hc1 x0 x1 x2 x3 x4 xo5 xs0
      = k0_pay6 (k0_pay5 x0 xs0 x2) x3 (k0_pay4 x0 x1 xo5) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xo5 xs0)]
  unfold kernelRun0_C
  dsimp only
  sl_unfold_words
  rw [View.canon_cons_unit_zero (S := S2048x2048) hz, View.readCov_unit_zero (S := S2048x2048) _ hz,
    View.readCov_unit_zero (S := S2048x16) _ hz]
  simp only [View.readAt_eq_ld, harg3.read_unread, harg4.read_unread, harg5.read_unread, harg6.read_unread,
    harg7.read_unread, harg8.read_unread, harg9.read_unread, View.ld_unit_zero (S := S2048x512) hz,
    View.ld_unit_zero (S := S512x2048) hz, View.ld_unit_zero (S := S512x16) hz, View.ld_unit_zero (S := S16x2048) hz,
    View.ld_unit_zero (S := S1x2048) hz, View.ld_unit_zero (S := S2048x2048) hz, View.ld_unit_zero (S := S2048x16) hz]

end Cert.KernelIdeal.Pieces

end
-- ==== Proof.LibPlainDot.lean ====
/-
  A plain matrix product read at an entry.

  For dimension numbers of the plain form — operands `[a, K]` and `[K, b]`, result `[a, b]`, the left operand's axis 1
  contracted with the right operand's axis 0, no batch axis — the left operand's index at result entry `(p, q)` and
  contraction position `k` is `(p, k)` and the right operand's is `(k, q)`.  On the extended reals both the vector unit's
  `tpu.matmul` into a zero accumulator and the host's `dot_general` are then the plain sum
  `Σ_k x(p, k) · w(k, q)` over `k : Fin K`.  Stated from hypotheses on the six dimension lists, so that it applies to any
  printed record of this form, whatever the extents.
-/
import Idealize.ShloMosaic.Lib.ValueIdx
import Idealize.ShloMosaic.PureOps.Ideal.Laws

noncomputable section

namespace Cert.Lib.PlainDot

open Idealize.ShloMosaic Idealize.ShloMosaic.ValueIdx

variable {a K b : Nat} (d : DotDims ⟨2, ![a, K]⟩ ⟨2, ![K, b]⟩ ⟨2, ![a, b]⟩)

/-- The left operand's row coordinate is the result's row coordinate. -/
theorem lhsIdx_row (hlb : d.lhsBatch = []) (hln : d.lhsNonContracting = [0])
    (j : (⟨2, ![a, b]⟩ : Shape).Idx) (k : d.contr.Idx) : (d.lhsIdx j k 0).val = (j 0).val := by
  unfold DotDims.lhsIdx
  have hb : (0 : Fin 2) ∉ d.lhsBatch := by rw [hlb]; exact List.not_mem_nil
  have hn : (0 : Fin 2) ∈ d.lhsNonContracting := by rw [hln]; exact List.mem_singleton.mpr rfl
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column coordinate. -/
theorem rhsIdx_col (hlb : d.lhsBatch = []) (hln : d.lhsNonContracting = [0]) (hrb : d.rhsBatch = [])
    (hrn : d.rhsNonContracting = [1])
    (j : (⟨2, ![a, b]⟩ : Shape).Idx) (k : d.contr.Idx) : (d.rhsIdx j k 1).val = (j 1).val := by
  unfold DotDims.rhsIdx
  have hb : (1 : Fin 2) ∉ d.rhsBatch := by rw [hrb]; exact List.not_mem_nil
  have hn : (1 : Fin 2) ∈ d.rhsNonContracting := by rw [hrn]; exact List.mem_singleton.mpr rfl
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

variable (hlb : d.lhsBatch = []) (hln : d.lhsNonContracting = [0]) (hlc : d.lhsContracting = [1])
  (hrb : d.rhsBatch = []) (hrn : d.rhsNonContracting = [1]) (hrc : d.rhsContracting = [0])
  (hr : d.contr.rank = 1) (hs : d.contr.size ⟨0, by omega⟩ = K)

include hlb hln hlc in
/-- The left operand is read at `(p, k)`. -/
theorem lhsIdx_plain (p : Fin a) (q : Fin b) (k : Fin K) :
    d.lhsIdx (ix2 p q) ((contrEquiv1 d K hr hs).symm k) = ix2 p k := by
  funext ax
  refine Fin.ext ?_
  match ax with
  | ⟨0, _⟩ => exact lhsIdx_row d hlb hln (ix2 p q) _
  | ⟨1, _⟩ =>
    show (d.lhsIdx (ix2 p q) ((contrEquiv1 d K hr hs).symm k) 1).val = k.val
    rw [DotDims.lhsIdx_val_of_single d hlc]
    exact contrEquiv1_symm_val d K hr hs k

include hlb hln hrb hrn hrc in
/-- The right operand is read at `(k, q)`. -/
theorem rhsIdx_plain (p : Fin a) (q : Fin b) (k : Fin K) :
    d.rhsIdx (ix2 p q) ((contrEquiv1 d K hr hs).symm k) = ix2 k q := by
  funext ax
  refine Fin.ext ?_
  match ax with
  | ⟨0, _⟩ =>
    show (d.rhsIdx (ix2 p q) ((contrEquiv1 d K hr hs).symm k) 0).val = k.val
    rw [DotDims.rhsIdx_val_of_single d hrc]
    exact contrEquiv1_symm_val d K hr hs k
  | ⟨1, _⟩ => exact rhsIdx_col d hlb hln hrb hrn (ix2 p q) _

include hlb hln hlc hrb hrn hrc hr hs in
/-- The vector unit's product into a zero accumulator, at `(p, q)`, is `Σ_k x(p, k) · w(k, q)`. -/
theorem matmul_zero_apply {φ₁ φ₂ : FTy} (prec : Option ContractPrecision)
    (x : FVec Ideal ⟨2, ![a, K]⟩ φ₁) (w : FVec Ideal ⟨2, ![K, b]⟩ φ₂) (p : Fin a) (q : Fin b) :
    (matmul (F := Ideal) d prec x w (constant ⟨2, ![a, b]⟩ .f32 0x00000000#32) (ix2 p q) : EReal)
      = ∑ k : Fin K, (x (ix2 p k) : EReal) * w (ix2 k q) := by
  show FloatOps.matmul d prec x w (constant ⟨2, ![a, b]⟩ .f32 0x00000000#32) (ix2 p q) = _
  rw [Ideal.matmul_constant_zero_apply, ← Equiv.sum_comp (contrEquiv1 d K hr hs).symm]
  exact Finset.sum_congr rfl fun k _ => by
    rw [lhsIdx_plain d hlb hln hlc hr hs, rhsIdx_plain d hlb hln hrb hrn hrc hr hs]

include hlb hln hlc hrb hrn hrc hr hs in
/-- The host's product, at `(p, q)`, is `Σ_k x(p, k) · w(k, q)`. -/
theorem dotGeneral_apply {φ₁ φ₂ : FTy} (prec : Option ContractPrecision)
    (x : FVec Ideal ⟨2, ![a, K]⟩ φ₁) (w : FVec Ideal ⟨2, ![K, b]⟩ φ₂) (p : Fin a) (q : Fin b) :
    (Host.dotGeneral (F := Ideal) d prec x w (ix2 p q) : EReal)
      = ∑ k : Fin K, (x (ix2 p k) : EReal) * w (ix2 k q) := by
  show FloatOps.dotGeneral d prec .single x w (ix2 p q) = _
  rw [Ideal.dotGeneral_apply, ← Equiv.sum_comp (contrEquiv1 d K hr hs).symm]
  exact Finset.sum_congr rfl fun k _ => by
    rw [lhsIdx_plain d hlb hln hlc hr hs, rhsIdx_plain d hlb hln hrb hrn hrc hr hs]

end Cert.Lib.PlainDot

end
-- ==== Proof.Payloads.lean ====
/-
  The body's stored values read at one entry, on the extended reals.

  There a change of float format is the identity and a matrix product into a zero accumulator is the plain sum of
  products, so the value stored into the output block by a run is the block's entry plus the run's 512 products, the
  value stored into the down-projection accumulator likewise, and the last run's extra store adds the bias row's entry
  and the 16-term up-projection times the literal 1.0.
-/
import proofs.«174211_j69011534512954_2_alg».proof.Proof.Gen.KernelIdeal.Skeleton
import proofs.«174211_j69011534512954_2_alg».proof.Proof.LibPlainDot
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payloads

open Cert.KernelIdeal Cert.KernelIdeal.Gen

/-- The block the first run stores into the output block is zero everywhere. -/
theorem zeroBlock_apply (j : S2048x2048.Idx) : (k0_pay1 (F := Ideal) j : EReal) = 0 :=
  Ideal.ofBits_zero_f32

/-- The block the first run stores into the accumulator is zero everywhere. -/
theorem zeroAcc_apply (j : S2048x16.Idx) : (k0_pay2 (F := Ideal) j : EReal) = 0 := by
  unfold k0_pay2
  simp only [shapeCast_self]
  exact Ideal.ofBits_zero_f32

/-- A run's store into the output block: the entry it held plus the run's products. -/
theorem dense_apply (v3 : Vec Ideal S2048x512 .f32) (v6 : Vec Ideal S512x2048 .bf16) (v8 : Vec Ideal S2048x2048 .f32)
    (p q : Fin 2048) :
    (k0_pay4 v3 v6 v8 (ix2 p q) : EReal) = v8 (ix2 p q) + ∑ kk : Fin 512, (v3 (ix2 p kk) : EReal) * v6 (ix2 kk q) := by
  unfold k0_pay4 k0_pay3
  simp only [shapeCast_self]
  exact congrArg (fun s : EReal => (v8 (ix2 p q) : EReal) + s)
    (Cert.Lib.PlainDot.matmul_zero_apply dot_S2048x512_S512x2048_S2048x2048_1_0_0_1_n_n rfl rfl rfl rfl rfl rfl rfl rfl
      none (truncf .bf16 v3 bitsLt_bf16_f32) v6 p q)

/-- A run's store into the accumulator: the entry it held plus the run's products. -/
theorem down_apply (v3 : Vec Ideal S2048x512 .f32) (v13 : Vec Ideal S2048x16 .f32) (v14 : Vec Ideal S512x16 .f32)
    (p : Fin 2048) (r : Fin 16) :
    (k0_pay5 v3 v13 v14 (ix2 p r) : EReal) = v13 (ix2 p r) + ∑ kk : Fin 512, (v3 (ix2 p kk) : EReal) * v14 (ix2 kk r) := by
  unfold k0_pay5 k0_pay3
  simp only [shapeCast_self]
  exact congrArg (fun s : EReal => (v13 (ix2 p r) : EReal) + s)
    (Cert.Lib.PlainDot.matmul_zero_apply dot_S2048x512_S512x16_S2048x16_1_0_0_1_n_n rfl rfl rfl rfl rfl rfl rfl rfl
      (some .fp32) v3 v14 p r)

/-- The bias row broadcast over the rows reads the row's entry in the same column. -/
theorem biasRow_apply (v : Vec Ideal S1x2048 .f32) (p q : Fin 2048) :
    (broadcastTo S2048x2048 v broadcasts_S1x2048_S2048x2048 (ix2 p q) : EReal) = v (ix2 (0 : Fin 1) q) :=
  broadcastTo_apply v broadcasts_S1x2048_S2048x2048 (ix2 p q) (ix2 (0 : Fin 1) q) (fun a => match a with
    | ⟨0, _⟩ => by show (0 : ℕ) = if (1 : Nat) = 1 then 0 else _; rw [if_pos rfl]
    | ⟨1, _⟩ => by show q.val = if (2048 : Nat) = 1 then 0 else q.val; rw [if_neg (by decide)])

/-- The last run's extra store: the block's entry plus the bias entry plus the scaled up-projection. -/
theorem last_apply (v23 : Vec Ideal S2048x16 .f32) (v24 : Vec Ideal S16x2048 .f32) (v28 : Vec Ideal S2048x2048 .f32)
    (v30 : Vec Ideal S1x2048 .f32) (p q : Fin 2048) :
    (k0_pay6 v23 v24 v28 v30 (ix2 p q) : EReal)
      = v28 (ix2 p q) + (v30 (ix2 (0 : Fin 1) q)
          + (∑ r : Fin 16, (v23 (ix2 p r) : EReal) * v24 (ix2 r q)) * Ideal.ofBits .f32 0x3F800000#32) := by
  unfold k0_pay6
  simp only [shapeCast_self]
  exact congrArg (fun s : EReal => (v28 (ix2 p q) : EReal) + s)
    (congrArg₂ (fun a b : EReal => a + b * Ideal.ofBits .f32 0x3F800000#32) (biasRow_apply v30 p q)
      (Cert.Lib.PlainDot.matmul_zero_apply dot_S2048x16_S16x2048_S2048x2048_1_0_0_1_n_n rfl rfl rfl rfl rfl rfl rfl rfl
        (some .fp32) v23 v24 p q))

end Cert.KernelIdeal.Payloads

end
-- ==== Proof.Blocks.lean ====
/-
  Where a window's block sits in its array, and what the arrays hold when the kernel starts.

  The grid has 128 points, numbered t = 16·i + 8·j + k for row tile i, column tile j and contraction run k.  Entry
  (p, kk) of the input block at point t is entry (2048·(t/16) + p, 512·(t%8) + kk) of the flattened input; the weight
  block starts at (512·(t%8), 2048·(t/8%2)); the down-projection block at (512·(t%8), 0); the up-projection block and
  the bias block at column 2048·(t/8%2).  Before the kernel runs the host flattens the input's two leading axes,
  turns the bias into a one-row matrix and converts the weights to bfloat16.
-/
import proofs.«174211_j69011534512954_2_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-! ## The block indices, decided over the grid -/

theorem idx_x : ∀ t : Fin cfg0.N, win0_0.index t (0 : Fin 2) = t.val / 16 ∧ win0_0.index t (1 : Fin 2) = t.val % 8 :=
  (by decide +kernel : ∀ t : Fin grid0.N, win0_0.index t (0 : Fin 2) = t.val / 16 ∧ win0_0.index t (1 : Fin 2) = t.val % 8)
theorem idx_w : ∀ t : Fin cfg0.N, win0_1.index t (0 : Fin 2) = t.val % 8 ∧ win0_1.index t (1 : Fin 2) = t.val / 8 % 2 :=
  (by decide +kernel : ∀ t : Fin grid0.N, win0_1.index t (0 : Fin 2) = t.val % 8 ∧ win0_1.index t (1 : Fin 2) = t.val / 8 % 2)
theorem idx_a : ∀ t : Fin cfg0.N, win0_2.index t (0 : Fin 2) = t.val % 8 ∧ win0_2.index t (1 : Fin 2) = 0 :=
  (by decide +kernel : ∀ t : Fin grid0.N, win0_2.index t (0 : Fin 2) = t.val % 8 ∧ win0_2.index t (1 : Fin 2) = 0)
theorem idx_b : ∀ t : Fin cfg0.N, win0_3.index t (0 : Fin 2) = 0 ∧ win0_3.index t (1 : Fin 2) = t.val / 8 % 2 :=
  (by decide +kernel : ∀ t : Fin grid0.N, win0_3.index t (0 : Fin 2) = 0 ∧ win0_3.index t (1 : Fin 2) = t.val / 8 % 2)
theorem idx_bias : ∀ t : Fin cfg0.N, win0_4.index t (0 : Fin 2) = 0 ∧ win0_4.index t (1 : Fin 2) = t.val / 8 % 2 :=
  (by decide +kernel : ∀ t : Fin grid0.N, win0_4.index t (0 : Fin 2) = 0 ∧ win0_4.index t (1 : Fin 2) = t.val / 8 % 2)
theorem idx_out : ∀ t : Fin cfg0.N, win0_5.index t (0 : Fin 2) = t.val / 16 ∧ win0_5.index t (1 : Fin 2) = t.val / 8 % 2 :=
  (by decide +kernel : ∀ t : Fin grid0.N, win0_5.index t (0 : Fin 2) = t.val / 16 ∧ win0_5.index t (1 : Fin 2) = t.val / 8 % 2)

/-! ## The input blocks read at an entry -/

/-- The input block at point `t`. -/
theorem x_block (c : Dev nD) (t : Fin cfg0.N) (p : Fin 2048) (kk : Fin 512) (R : Fin 16384) (d : Fin 4096)
    (hR : R.val = t.val / 16 * 2048 + p.val) (hd : d.val = t.val % 8 * 512 + kk.val) :
    (iblk m c 0 t : Vec F S2048x512 .f32) (ix2 p kk) = V m c main_v0 (ix2 R d) := by
  unfold iblk
  rw [View.read_apply]
  show V m c main_v0 _ = V m c main_v0 _
  refine congrArg (V m c main_v0) (funext fun a => Fin.ext ?_)
  match a with
  | ⟨0, _⟩ => show win0_0.index t 0 * 2048 + 1 * p.val = R.val; rw [(idx_x t).1, hR]; omega
  | ⟨1, _⟩ => show win0_0.index t 1 * 512 + 1 * kk.val = d.val; rw [(idx_x t).2, hd]; omega

/-- The weight block at point `t`. -/
theorem w_block (c : Dev nD) (t : Fin cfg0.N) (kk : Fin 512) (q : Fin 2048) (d : Fin 4096) (C : Fin 4096)
    (hd : d.val = t.val % 8 * 512 + kk.val) (hC : C.val = t.val / 8 % 2 * 2048 + q.val) :
    (iblk m c 1 t : Vec F S512x2048 .bf16) (ix2 kk q) = V m c main_v2 (ix2 d C) := by
  unfold iblk
  rw [View.read_apply]
  show V m c main_v2 _ = V m c main_v2 _
  refine congrArg (V m c main_v2) (funext fun a => Fin.ext ?_)
  match a with
  | ⟨0, _⟩ => show win0_1.index t 0 * 512 + 1 * kk.val = d.val; rw [(idx_w t).1, hd]; omega
  | ⟨1, _⟩ => show win0_1.index t 1 * 2048 + 1 * q.val = C.val; rw [(idx_w t).2, hC]; omega

/-- The down-projection block at point `t`. -/
theorem a_block (c : Dev nD) (t : Fin cfg0.N) (kk : Fin 512) (r : Fin 16) (d : Fin 4096)
    (hd : d.val = t.val % 8 * 512 + kk.val) :
    (iblk m c 2 t : Vec F S512x16 .f32) (ix2 kk r) = V m c main_arg3 (ix2 d r) := by
  unfold iblk
  rw [View.read_apply]
  show V m c main_arg3 _ = V m c main_arg3 _
  refine congrArg (V m c main_arg3) (funext fun a => Fin.ext ?_)
  match a with
  | ⟨0, _⟩ => show win0_2.index t 0 * 512 + 1 * kk.val = d.val; rw [(idx_a t).1, hd]; omega
  | ⟨1, _⟩ => show win0_2.index t 1 * 16 + 1 * r.val = r.val; rw [(idx_a t).2]; omega

/-- The up-projection block at point `t`. -/
theorem b_block (c : Dev nD) (t : Fin cfg0.N) (r : Fin 16) (q : Fin 2048) (C : Fin 4096)
    (hC : C.val = t.val / 8 % 2 * 2048 + q.val) :
    (iblk m c 3 t : Vec F S16x2048 .f32) (ix2 r q) = V m c main_arg4 (ix2 r C) := by
  unfold iblk
  rw [View.read_apply]
  show V m c main_arg4 _ = V m c main_arg4 _
  refine congrArg (V m c main_arg4) (funext fun a => Fin.ext ?_)
  match a with
  | ⟨0, _⟩ => show win0_3.index t 0 * 16 + 1 * r.val = r.val; rw [(idx_b t).1]; omega
  | ⟨1, _⟩ => show win0_3.index t 1 * 2048 + 1 * q.val = C.val; rw [(idx_b t).2, hC]; omega

/-- The bias block at point `t`. -/
theorem bias_block (c : Dev nD) (t : Fin cfg0.N) (q : Fin 2048) (C : Fin 4096)
    (hC : C.val = t.val / 8 % 2 * 2048 + q.val) :
    (iblk m c 4 t : Vec F S1x2048 .f32) (ix2 (0 : Fin 1) q) = V m c main_v1 (ix2 (0 : Fin 1) C) := by
  unfold iblk
  rw [View.read_apply]
  show V m c main_v1 _ = V m c main_v1 _
  refine congrArg (V m c main_v1) (funext fun a => Fin.ext ?_)
  match a with
  | ⟨0, _⟩ => show win0_4.index t 0 * 1 + 1 * 0 = 0; rw [(idx_bias t).1]
  | ⟨1, _⟩ => show win0_4.index t 1 * 2048 + 1 * q.val = C.val; rw [(idx_bias t).2, hC]; omega

/-! ## What the host leaves in the kernel's arrays -/

/-- The flattened input. -/
theorem V_x (c : Dev nD) :
    (V m c main_v0 : S16384x4096.Idx → Elt F .f32)
      = shapeCast S16384x4096 (m ((c : Thread nD τ).loc main_arg0)) shapeCasts_S8x2048x4096_S16384x4096 := by
  show StableHlo.after hostOps0 (fun b => m (c, b)) (Proc.devRef .tc main_v0) = _
  after_results
  rfl

/-- The bias as a one-row matrix. -/
theorem V_bias (c : Dev nD) :
    (V m c main_v1 : S1x4096.Idx → Elt F .f32)
      = shapeCast S1x4096 (m ((c : Thread nD τ).loc main_arg2)) shapeCasts_S4096_S1x4096 := by
  show StableHlo.after hostOps0 (fun b => m (c, b)) (Proc.devRef .tc main_v1) = _
  after_results
  rfl

/-- The weights in bfloat16. -/
theorem V_w (c : Dev nD) :
    (V m c main_v2 : S4096x4096.Idx → Elt F .bf16)
      = truncf .bf16 (m ((c : Thread nD τ).loc main_arg1)) bitsLt_bf16_f32 := by
  show StableHlo.after hostOps0 (fun b => m (c, b)) (Proc.devRef .tc main_v2) = _
  after_results

end Cert.KernelIdeal.Blocks

end
-- ==== Proof.LibBlockRuns.lean ====
/-
  Sums over `Fin (A·B)` taken as `A` runs of `B`, and the sum of a family that vanishes outside one run.

  A kernel that packs `A` small matrices into one block-diagonal matrix (a Kronecker product with the identity)
  contracts over every (block, lane) pair `k = a·B + r` with a factor that is zero unless `a` is the output's block:
  such a sum is the sum over the one surviving run.  Stated in any additive commutative monoid, so on the extended
  reals no finiteness is involved.  `N` is a separate variable with `hN : N = A * B`, so that the lemmas apply to a
  literal `Fin 2048` with `A B := 16 128` and `hN := rfl`.
-/
import Mathlib.Algebra.BigOperators.Fin
import Mathlib.Tactic.Linarith

namespace Cert.Lib.BlockRuns

/-- Position `r` of run `a`: the index `a·B + r` of `Fin N`, `N = A·B`. -/
def runIdx (A B N : ℕ) (hN : N = A * B) (a : Fin A) (r : Fin B) : Fin N :=
  ⟨a.val * B + r.val, by subst hN; have := a.isLt; have := r.isLt; nlinarith⟩

/-- A sum over `Fin (A·B)`, taken as `A` runs of `B`. -/
theorem sum_runs {M : Type*} [AddCommMonoid M] (A B N : ℕ) (hN : N = A * B) (f : Fin N → M) :
    ∑ k : Fin N, f k = ∑ a : Fin A, ∑ r : Fin B, f (runIdx A B N hN a r) := by
  subst hN
  rw [← Fintype.sum_prod_type' (f := fun (a : Fin A) (r : Fin B) => f (runIdx A B (A * B) rfl a r))]
  refine (Fintype.sum_equiv finProdFinEquiv.symm _ _ fun k => ?_)
  refine congrArg f (Fin.ext ?_)
  simp only [runIdx, finProdFinEquiv_symm_apply, Fin.coe_divNat, Fin.coe_modNat]
  exact (Nat.div_add_mod' k.val B).symm

/-- If only run `a0` carries anything — every other run's terms are zero — the sum is that run's. -/
theorem sum_one_run {M : Type*} [AddCommMonoid M] (A B N : ℕ) (hN : N = A * B) (f : Fin N → M) (g : Fin B → M) (a0 : Fin A)
    (hin : ∀ r : Fin B, f (runIdx A B N hN a0 r) = g r)
    (hout : ∀ (a : Fin A) (r : Fin B), a ≠ a0 → f (runIdx A B N hN a r) = 0) :
    ∑ k : Fin N, f k = ∑ r : Fin B, g r := by
  rw [sum_runs A B N hN f, Finset.sum_eq_single a0]
  · exact Finset.sum_congr rfl fun r _ => hin r
  · intro a _ ha
    exact Finset.sum_eq_zero fun r _ => hout a r ha
  · intro h; exact absurd (Finset.mem_univ a0) h

end Cert.Lib.BlockRuns
-- ==== Proof.Spec.lean ====
/-
  The LoRA-fused dense layer on the extended reals.

  The kernel works on a row-flattened input `X` of 16384 rows and walks the 4096-long contraction axis in eight runs
  of 512.  Entry (R, C) of its result is
      Σ_κ Σ_kk X(R, 512κ+kk)·W(512κ+kk, C)  +  ( bias(0, C) + (Σ_r (Σ_κ Σ_kk X(R, 512κ+kk)·A(512κ+kk, r))·B(r, C)) · 1 ),
  each double sum built up run by run from zero.  The reference is
      ( Σ_d X(R, d)·W(d, C) + bias(C) )  +  (Σ_r (Σ_d X(R, d)·A(d, r))·B(r, C)) · 1.
  A sum over 4096 positions is the sum of its eight runs, and addition on the extended reals is associative and
  commutative, so the two agree for every input, finite or not.
-/
import Idealize.ShloMosaic.Lib.ValueIdx
import Idealize.ShloMosaic.PureOps.Ideal.Laws
import proofs.«174211_j69011534512954_2_alg».proof.Proof.LibBlockRuns

noncomputable section

namespace Cert.LoraSpec

open Idealize.ShloMosaic Idealize.ShloMosaic.ValueIdx Cert.Lib.BlockRuns

/-- Position `512·κ + kk` of the contraction axis: place `kk` of run `κ`. -/
abbrev kAt (κ : Fin 8) (kk : Fin 512) : Fin 4096 := runIdx 8 512 4096 rfl κ kk

theorem kAt_val (κ : Fin 8) (kk : Fin 512) : (kAt κ kk).val = κ.val * 512 + kk.val := rfl

/-- The literal 1.0 both programs multiply the low-rank term by. -/
abbrev one : EReal := Ideal.ofBits .f32 0x3F800000#32

/-! ## Partial sums over the first runs -/

/-- The sum of the first `n + 1` of eight terms. -/
def upto (f : Fin 8 → EReal) (n : ℕ) : EReal :=
  ∑ κ ∈ Finset.range (n + 1), if h : κ < 8 then f ⟨κ, h⟩ else 0

/-- Starting from zero and adding the first term gives the first partial sum. -/
theorem upto_zero (f : Fin 8 → EReal) : (0 : EReal) + f 0 = upto f 0 := by
  unfold upto
  rw [Finset.sum_range_one, zero_add, dif_pos (by decide : (0 : ℕ) < 8)]
  rfl

/-- Adding the next term gives the next partial sum. -/
theorem upto_succ (f : Fin 8 → EReal) (n : ℕ) (h : n + 1 < 8) : upto f n + f ⟨n + 1, h⟩ = upto f (n + 1) := by
  unfold upto
  rw [Finset.sum_range_succ _ (n + 1), dif_pos h]

/-- After the eighth term the partial sum is the whole sum. -/
theorem upto_last (f : Fin 8 → EReal) : upto f 7 = ∑ κ : Fin 8, f κ := by
  unfold upto
  rw [Finset.sum_range]
  exact Finset.sum_congr rfl fun κ _ => by rw [dif_pos κ.isLt]

/-! ## The terms -/

variable (X : (⟨2, ![16384, 4096]⟩ : Shape).Idx → EReal) (W : (⟨2, ![4096, 4096]⟩ : Shape).Idx → EReal)
  (A : (⟨2, ![4096, 16]⟩ : Shape).Idx → EReal) (B : (⟨2, ![16, 4096]⟩ : Shape).Idx → EReal)
  (bias : (⟨2, ![1, 4096]⟩ : Shape).Idx → EReal)

/-- Run `κ` of the dense product at entry (R, C). -/
def denseRun (R : Fin 16384) (C : Fin 4096) (κ : Fin 8) : EReal :=
  ∑ kk : Fin 512, X (ix2 R (kAt κ kk)) * W (ix2 (kAt κ kk) C)

/-- Run `κ` of the down-projection at entry (R, r). -/
def downRun (R : Fin 16384) (r : Fin 16) (κ : Fin 8) : EReal :=
  ∑ kk : Fin 512, X (ix2 R (kAt κ kk)) * A (ix2 (kAt κ kk) r)

/-- What the last step adds to the accumulated dense product: the bias plus the scaled up-projection of the
    accumulated down-projection `l`. -/
def tail (l : Fin 16 → EReal) (C : Fin 4096) : EReal :=
  bias (ix2 0 C) + (∑ r : Fin 16, l r * B (ix2 r C)) * one

/-- The kernel's result at entry (R, C). -/
def kernelOut (R : Fin 16384) (C : Fin 4096) : EReal :=
  (∑ κ : Fin 8, denseRun X W R C κ) + tail B bias (fun r => ∑ κ : Fin 8, downRun X A R r κ) C

/-- The eight runs of the dense product are the whole product. -/
theorem dense_runs (R : Fin 16384) (C : Fin 4096) :
    ∑ κ : Fin 8, denseRun X W R C κ = ∑ d : Fin 4096, X (ix2 R d) * W (ix2 d C) :=
  (sum_runs 8 512 4096 rfl fun d => X (ix2 R d) * W (ix2 d C)).symm

/-- The eight runs of the down-projection are the whole down-projection. -/
theorem down_runs (R : Fin 16384) (r : Fin 16) :
    ∑ κ : Fin 8, downRun X A R r κ = ∑ d : Fin 4096, X (ix2 R d) * A (ix2 d r) :=
  (sum_runs 8 512 4096 rfl fun d => X (ix2 R d) * A (ix2 d r)).symm

/-- The kernel's entry in the reference's arrangement: whole contractions, the bias added to the dense product
    first. -/
theorem kernelOut_eq (R : Fin 16384) (C : Fin 4096) :
    kernelOut X W A B bias R C
      = ((∑ d : Fin 4096, X (ix2 R d) * W (ix2 d C)) + bias (ix2 0 C))
        + (∑ r : Fin 16, (∑ d : Fin 4096, X (ix2 R d) * A (ix2 d r)) * B (ix2 r C)) * one := by
  unfold kernelOut tail
  rw [dense_runs, add_assoc]
  simp only [down_runs]

/-! ## The reference -/

/-- The reference's result at batch `bb`, position `s`, output feature `o`: the dense layer with its bias, plus the
    scaled low-rank term. -/
def refOut (x : (⟨3, ![8, 2048, 4096]⟩ : Shape).Idx → EReal) (w : (⟨2, ![4096, 4096]⟩ : Shape).Idx → EReal)
    (b : (⟨1, ![4096]⟩ : Shape).Idx → EReal) (a : (⟨2, ![4096, 16]⟩ : Shape).Idx → EReal)
    (bm : (⟨2, ![16, 4096]⟩ : Shape).Idx → EReal) (bb : Fin 8) (s : Fin 2048) (o : Fin 4096) : EReal :=
  ((∑ d : Fin 4096, x (ix3 bb s d) * w (ix2 d o)) + b (ix1 o))
    + (∑ r : Fin 16, (∑ d : Fin 4096, x (ix3 bb s d) * a (ix2 d r)) * bm (ix2 r o)) * one

/-- Row `2048·bb + s` of the flattened input. -/
def flatRow (bb : Fin 8) (s : Fin 2048) : Fin 16384 := ⟨bb.val * 2048 + s.val, by have := bb.isLt; have := s.isLt; omega⟩

/-- The kernel's entry over a flattened input, a one-row bias and the same weights is the reference's entry. -/
theorem kernelOut_eq_refOut (x : (⟨3, ![8, 2048, 4096]⟩ : Shape).Idx → EReal) (w : (⟨2, ![4096, 4096]⟩ : Shape).Idx → EReal)
    (b : (⟨1, ![4096]⟩ : Shape).Idx → EReal) (bb : Fin 8) (s : Fin 2048) (o : Fin 4096)
    (hX : ∀ d : Fin 4096, X (ix2 (flatRow bb s) d) = x (ix3 bb s d))
    (hW : ∀ d : Fin 4096, W (ix2 d o) = w (ix2 d o))
    (hb : bias (ix2 0 o) = b (ix1 o)) :
    kernelOut X W A B bias (flatRow bb s) o = refOut x w b A B bb s o := by
  rw [kernelOut_eq]
  unfold refOut
  simp only [hX, hW, hb]

end Cert.LoraSpec

end
-- ==== Proof.Accum.lean ====
/-
  The output block and the down-projection accumulator after each grid point.

  The eight points 8g, …, 8g+7 of one output tile g walk the contraction axis.  After point 8g+n the accumulator's entry
  (p, r) is the sum of the first n+1 runs of the down-projection of row (g/2)·2048 + p, and, before the last point, the
  output block's entry (p, q) is the sum of the first n+1 runs of the dense product of that row with column
  (g%2)·2048 + q; after the last point it is the finished entry: all eight dense runs plus the bias plus the scaled
  up-projection of all eight down-projection runs.  By induction on n, a run at a time.
-/
import proofs.«174211_j69011534512954_2_alg».proof.Proof.Pieces
import proofs.«174211_j69011534512954_2_alg».proof.Proof.Payloads
import proofs.«174211_j69011534512954_2_alg».proof.Proof.Blocks
import proofs.«174211_j69011534512954_2_alg».proof.Proof.Spec

noncomputable section

open Idealize.ShloMosaic Idealize.ShloMosaic.TcCoe Idealize.SL.Sem Idealize.ShloMosaic.ValueIdx

namespace Cert.KernelIdeal.Accum

open Cert.KernelIdeal Cert.KernelIdeal.Gen Cert.LoraSpec

/-! ## One point's step, whatever the float values are -/

section Steps

variable {F : FTy → Type} [FloatOps F]
variable (m : (ℓ : Loc nD τ sig) → Buf (Elt F) ℓ) (c : Dev nD)

/-- What the buffers hold after a point depends on the point's number only. -/
theorem outsAt0_congr (a b : ℕ) (ha : a < cfg0.N) (hb : b < cfg0.N) (h : a = b) : outsAt0 m c a ha = outsAt0 m c b hb := by
  subst h; rfl

/-- A tile's first point: the output block is its dense products added to zeros. -/
theorem first_out (t : Fin cfg0.N) (h0 : t.val % 8 = 0) :
    (outsAt0 m c t.val t.isLt).1 = k0_pay4 (iblk m c 0 t) (iblk m c 1 t) (k0_pay1 (F := F)) := by
  have h1 : ¬t.val % 8 = 7 := by omega
  rw [outsAt0_A m c t h0 h1]
  dsimp only
  exact Pieces.out_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) ((hcond0_0 t).mpr h0) (fun h => h1 ((hcond0_1 t).mp h))

/-- A tile's first point: the accumulator is its down-projection products added to zeros. -/
theorem first_acc (t : Fin cfg0.N) (h0 : t.val % 8 = 0) :
    (outsAt0 m c t.val t.isLt).2 = k0_pay5 (iblk m c 0 t) (k0_pay2 (F := F)) (iblk m c 2 t) := by
  have h1 : ¬t.val % 8 = 7 := by omega
  rw [outsAt0_A m c t h0 h1]
  dsimp only
  exact Pieces.acc_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) ((hcond0_0 t).mpr h0) (fun h => h1 ((hcond0_1 t).mp h))

/-- A middle point: the accumulator is its down-projection products added to what the point before left. -/
theorem mid_acc (t : Fin cfg0.N) (h0 : ¬t.val % 8 = 0) (h1 : ¬t.val % 8 = 7) :
    (outsAt0 m c t.val t.isLt).2 = k0_pay5 (iblk m c 0 t) (outsAt0 m c (t.val - 1) (Nat.lt_of_le_of_lt (Nat.sub_le _ _) t.isLt)).2 (iblk m c 2 t) := by
  rw [outsAt0_B m c t h0 h1]
  dsimp only
  exact Pieces.acc_mid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2 (fun h => h0 ((hcond0_0 t).mp h)) (fun h => h1 ((hcond0_1 t).mp h))

/-- A tile's last point: the accumulator moves as at a middle point. -/
theorem last_acc (t : Fin cfg0.N) (h0 : ¬t.val % 8 = 0) (h1 : t.val % 8 = 7) :
    (outsAt0 m c t.val t.isLt).2 = k0_pay5 (iblk m c 0 t) (outsAt0 m c (t.val - 1) (Nat.lt_of_le_of_lt (Nat.sub_le _ _) t.isLt)).2 (iblk m c 2 t) := by
  rw [outsAt0_C m c t h0 h1]
  dsimp only
  exact Pieces.acc_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2 (fun h => h0 ((hcond0_0 t).mp h)) ((hcond0_1 t).mpr h1)

/-- A middle point: the output block is its dense products added to what the point before left. -/
theorem mid_out (t : Fin cfg0.N) (h0 : ¬t.val % 8 = 0) (h1 : ¬t.val % 8 = 7) :
    (outsAt0 m c t.val t.isLt).1 = k0_pay4 (iblk m c 0 t) (iblk m c 1 t) (outsAt0 m c (t.val - 1) (Nat.lt_of_le_of_lt (Nat.sub_le _ _) t.isLt)).1 := by
  rw [outsAt0_B m c t h0 h1]
  dsimp only
  exact Pieces.out_mid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2 (fun h => h0 ((hcond0_0 t).mp h)) (fun h => h1 ((hcond0_1 t).mp h))

/-- A tile's last point: on top of a middle point's step, the bias and the scaled up-projection of the finished
    accumulator. -/
theorem last_out (t : Fin cfg0.N) (h0 : ¬t.val % 8 = 0) (h1 : t.val % 8 = 7) :
    (outsAt0 m c t.val t.isLt).1
      = k0_pay6 (k0_pay5 (iblk m c 0 t) (outsAt0 m c (t.val - 1) (Nat.lt_of_le_of_lt (Nat.sub_le _ _) t.isLt)).2 (iblk m c 2 t)) (iblk m c 3 t)
          (k0_pay4 (iblk m c 0 t) (iblk m c 1 t) (outsAt0 m c (t.val - 1) (Nat.lt_of_le_of_lt (Nat.sub_le _ _) t.isLt)).1) (iblk m c 4 t) := by
  rw [outsAt0_C m c t h0 h1]
  dsimp only
  exact Pieces.out_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2 (fun h => h0 ((hcond0_0 t).mp h)) ((hcond0_1 t).mpr h1)

/-- Any point but a tile's first: the accumulator's step. -/
theorem next_acc (t : Fin cfg0.N) (h0 : ¬t.val % 8 = 0) :
    (outsAt0 m c t.val t.isLt).2 = k0_pay5 (iblk m c 0 t) (outsAt0 m c (t.val - 1) (Nat.lt_of_le_of_lt (Nat.sub_le _ _) t.isLt)).2 (iblk m c 2 t) := by
  by_cases h1 : t.val % 8 = 7
  · exact last_acc m c t h0 h1
  · exact mid_acc m c t h0 h1

end Steps

/-! ## The running sums, on the extended reals -/

section Sums

/-- A store that adds a run's products to an entry known to be `a`, the products known to sum to `s`. -/
theorem down_step (x0 : Vec Ideal S2048x512 .f32) (acc : Vec Ideal S2048x16 .f32) (x2 : Vec Ideal S512x16 .f32)
    (p : Fin 2048) (r : Fin 16) (a s : EReal) (ha : (acc (ix2 p r) : EReal) = a)
    (hs : ∑ kk : Fin 512, (x0 (ix2 p kk) : EReal) * x2 (ix2 kk r) = s) :
    (k0_pay5 x0 acc x2 (ix2 p r) : EReal) = a + s := by
  rw [Payloads.down_apply, ha, hs]

/-- The same for the output block. -/
theorem dense_step (x0 : Vec Ideal S2048x512 .f32) (x1 : Vec Ideal S512x2048 .bf16) (acc : Vec Ideal S2048x2048 .f32)
    (p q : Fin 2048) (a s : EReal) (ha : (acc (ix2 p q) : EReal) = a)
    (hs : ∑ kk : Fin 512, (x0 (ix2 p kk) : EReal) * x1 (ix2 kk q) = s) :
    (k0_pay4 x0 x1 acc (ix2 p q) : EReal) = a + s := by
  rw [Payloads.dense_apply, ha, hs]

/-- The last point's extra store, its four ingredients known. -/
theorem last_step (l : Vec Ideal S2048x16 .f32) (x3 : Vec Ideal S16x2048 .f32) (acc : Vec Ideal S2048x2048 .f32)
    (x4 : Vec Ideal S1x2048 .f32) (p q : Fin 2048) (a bq : EReal) (lv bv : Fin 16 → EReal)
    (ha : (acc (ix2 p q) : EReal) = a) (hb : (x4 (ix2 (0 : Fin 1) q) : EReal) = bq)
    (hl : ∀ r : Fin 16, (l (ix2 p r) : EReal) = lv r) (hB : ∀ r : Fin 16, (x3 (ix2 r q) : EReal) = bv r) :
    (k0_pay6 l x3 acc x4 (ix2 p q) : EReal) = a + (bq + (∑ r : Fin 16, lv r * bv r) * one) := by
  rw [Payloads.last_apply, ha, hb]
  simp only [hl, hB]

variable (m : (ℓ : Loc nD τ sig) → Buf (Elt Ideal) ℓ) (c : Dev nD)

/-- Point `n` of output tile `g`. -/
def pt (g : Fin 16) (n : ℕ) (hn : n < 8) : Fin cfg0.N :=
  ⟨g.val * 8 + n, by have := g.isLt; rw [show cfg0.N = 128 from N_0]; omega⟩

/-- Row `p` of tile `g` in the flattened input. -/
def rowOf (g : Fin 16) (p : Fin 2048) : Fin 16384 := ⟨g.val / 2 * 2048 + p.val, by have := g.isLt; have := p.isLt; omega⟩

/-- Column `q` of tile `g` in the result. -/
def colOf (g : Fin 16) (q : Fin 2048) : Fin 4096 := ⟨g.val % 2 * 2048 + q.val, by have := q.isLt; omega⟩

/-- The dense products of point `n` of tile `g` are run `n` of the dense product. -/
theorem dense_products (g : Fin 16) (n : ℕ) (hn : n < 8) (p q : Fin 2048)
    (x0 : Vec Ideal S2048x512 .f32) (x1 : Vec Ideal S512x2048 .bf16)
    (h0 : x0 = iblk m c 0 (pt g n hn)) (h1 : x1 = iblk m c 1 (pt g n hn)) :
    ∑ kk : Fin 512, (x0 (ix2 p kk) : EReal) * x1 (ix2 kk q)
      = denseRun (V m c main_v0) (V m c main_v2) (rowOf g p) (colOf g q) ⟨n, hn⟩ := by
  subst h0 h1
  unfold denseRun
  refine Finset.sum_congr rfl fun kk _ => ?_
  exact congrArg₂ (fun a b : EReal => a * b)
    (Blocks.x_block m c (pt g n hn) p kk (rowOf g p) (kAt ⟨n, hn⟩ kk)
      (by show g.val / 2 * 2048 + p.val = (g.val * 8 + n) / 16 * 2048 + p.val; omega)
      (by show n * 512 + kk.val = (g.val * 8 + n) % 8 * 512 + kk.val; omega))
    (Blocks.w_block m c (pt g n hn) kk q (kAt ⟨n, hn⟩ kk) (colOf g q)
      (by show n * 512 + kk.val = (g.val * 8 + n) % 8 * 512 + kk.val; omega)
      (by show g.val % 2 * 2048 + q.val = (g.val * 8 + n) / 8 % 2 * 2048 + q.val; omega))

/-- The down-projection products of point `n` of tile `g` are run `n` of the down-projection. -/
theorem down_products (g : Fin 16) (n : ℕ) (hn : n < 8) (p : Fin 2048) (r : Fin 16)
    (x0 : Vec Ideal S2048x512 .f32) (x2 : Vec Ideal S512x16 .f32)
    (h0 : x0 = iblk m c 0 (pt g n hn)) (h2 : x2 = iblk m c 2 (pt g n hn)) :
    ∑ kk : Fin 512, (x0 (ix2 p kk) : EReal) * x2 (ix2 kk r)
      = downRun (V m c main_v0) (V m c main_arg3) (rowOf g p) r ⟨n, hn⟩ := by
  subst h0 h2
  unfold downRun
  refine Finset.sum_congr rfl fun kk _ => ?_
  exact congrArg₂ (fun a b : EReal => a * b)
    (Blocks.x_block m c (pt g n hn) p kk (rowOf g p) (kAt ⟨n, hn⟩ kk)
      (by show g.val / 2 * 2048 + p.val = (g.val * 8 + n) / 16 * 2048 + p.val; omega)
      (by show n * 512 + kk.val = (g.val * 8 + n) % 8 * 512 + kk.val; omega))
    (Blocks.a_block m c (pt g n hn) kk r (kAt ⟨n, hn⟩ kk)
      (by show n * 512 + kk.val = (g.val * 8 + n) % 8 * 512 + kk.val; omega))

/-- The point before point `n + 1` of a tile is its point `n`. -/
theorem prev_pt (g : Fin 16) (n : ℕ) (hn : n + 1 < 8) :
    outsAt0 m c ((pt g (n + 1) hn).val - 1) (Nat.lt_of_le_of_lt (Nat.sub_le _ _) (pt g (n + 1) hn).isLt)
      = outsAt0 m c (pt g n (by omega)).val (pt g n (by omega)).isLt :=
  outsAt0_congr m c _ _ _ _ (by show g.val * 8 + (n + 1) - 1 = g.val * 8 + n; omega)

/-- After point `n` of tile `g` the accumulator holds the first `n + 1` runs of the down-projection. -/
theorem acc_sum (g : Fin 16) : ∀ (n : ℕ) (hn : n < 8) (p : Fin 2048) (r : Fin 16),
    (((outsAt0 m c (pt g n hn).val (pt g n hn).isLt).2 : Vec Ideal S2048x16 .f32) (ix2 p r) : EReal)
      = upto (fun κ => downRun (V m c main_v0) (V m c main_arg3) (rowOf g p) r κ) n
  | 0, hn, p, r => by
    rw [first_acc m c (pt g 0 hn) (by show (g.val * 8 + 0) % 8 = 0; omega), ← upto_zero]
    exact down_step (iblk m c 0 (pt g 0 hn)) (k0_pay2 (F := Ideal)) (iblk m c 2 (pt g 0 hn)) p r _ _
      (Payloads.zeroAcc_apply _) (down_products m c g 0 hn p r _ _ rfl rfl)
  | n + 1, hn, p, r => by
    rw [next_acc m c (pt g (n + 1) hn) (by show ¬(g.val * 8 + (n + 1)) % 8 = 0; omega), ← upto_succ _ n hn]
    exact down_step (iblk m c 0 (pt g (n + 1) hn)) _ (iblk m c 2 (pt g (n + 1) hn)) p r _ _
      (by rw [prev_pt m c g n hn]; exact acc_sum g n (by omega) p r)
      (down_products m c g (n + 1) hn p r _ _ rfl rfl)

/-- Before a tile's last point the output block holds the first `n + 1` runs of the dense product. -/
theorem dense_sum (g : Fin 16) : ∀ (n : ℕ) (hn : n < 7) (p q : Fin 2048),
    (((outsAt0 m c (pt g n (by omega)).val (pt g n (by omega)).isLt).1 : Vec Ideal S2048x2048 .f32) (ix2 p q) : EReal)
      = upto (fun κ => denseRun (V m c main_v0) (V m c main_v2) (rowOf g p) (colOf g q) κ) n
  | 0, hn, p, q => by
    rw [first_out m c (pt g 0 (by omega)) (by show (g.val * 8 + 0) % 8 = 0; omega), ← upto_zero]
    exact dense_step (iblk m c 0 (pt g 0 (by omega))) (iblk m c 1 (pt g 0 (by omega))) (k0_pay1 (F := Ideal)) p q _ _
      (Payloads.zeroBlock_apply _) (dense_products m c g 0 (by omega) p q _ _ rfl rfl)
  | n + 1, hn, p, q => by
    rw [mid_out m c (pt g (n + 1) (by omega)) (by show ¬(g.val * 8 + (n + 1)) % 8 = 0; omega)
      (by show ¬(g.val * 8 + (n + 1)) % 8 = 7; omega), ← upto_succ _ n (by omega)]
    exact dense_step (iblk m c 0 (pt g (n + 1) (by omega))) (iblk m c 1 (pt g (n + 1) (by omega))) _ p q _ _
      (by rw [prev_pt m c g n (by omega)]; exact dense_sum g n (by omega) p q)
      (dense_products m c g (n + 1) (by omega) p q _ _ rfl rfl)

/-- After a tile's last point the output block holds the finished entries. -/
theorem tile_done (g : Fin 16) (p q : Fin 2048) :
    (((outsAt0 m c (pt g 7 (by omega)).val (pt g 7 (by omega)).isLt).1 : Vec Ideal S2048x2048 .f32) (ix2 p q) : EReal)
      = kernelOut (V m c main_v0) (V m c main_v2) (V m c main_arg3) (V m c main_arg4) (V m c main_v1) (rowOf g p) (colOf g q) := by
  rw [last_out m c (pt g 7 (by omega)) (by show ¬(g.val * 8 + 7) % 8 = 0; omega) (by show (g.val * 8 + 7) % 8 = 7; omega)]
  unfold kernelOut tail
  refine last_step _ (iblk m c 3 (pt g 7 (by omega))) _ (iblk m c 4 (pt g 7 (by omega))) p q _ _ _ _ ?_ ?_ (fun r => ?_) (fun r => ?_)
  · rw [← upto_last, ← upto_succ _ 6 (by omega)]
    exact dense_step (iblk m c 0 (pt g 7 (by omega))) (iblk m c 1 (pt g 7 (by omega))) _ p q _ _
      (by rw [prev_pt m c g 6 (by omega)]; exact dense_sum m c g 6 (by omega) p q)
      (dense_products m c g 7 (by omega) p q _ _ rfl rfl)
  · exact Blocks.bias_block m c (pt g 7 (by omega)) q (colOf g q)
      (by show g.val % 2 * 2048 + q.val = (g.val * 8 + 7) / 8 % 2 * 2048 + q.val; omega)
  · rw [← upto_last, ← upto_succ _ 6 (by omega)]
    exact down_step (iblk m c 0 (pt g 7 (by omega))) _ (iblk m c 2 (pt g 7 (by omega))) p r _ _
      (by rw [prev_pt m c g 6 (by omega)]; exact acc_sum m c g 6 (by omega) p r)
      (down_products m c g 7 (by omega) p r _ _ rfl rfl)
  · exact Blocks.b_block m c (pt g 7 (by omega)) r q (colOf g q)
      (by show g.val % 2 * 2048 + q.val = (g.val * 8 + 7) / 8 % 2 * 2048 + q.val; omega)

end Sums

end Cert.KernelIdeal.Accum

end
-- ==== Proof.Final.lean ====
/-
  The kernel's result, read off its run.

  Each output tile is written back once, after its last point, so the result matrix ends holding the finished entries
  everywhere: entry (R, C) lies in tile g = 2·(R/2048) + C/2048.  The host then regroups the 16384 rows as 8 × 2048.
  With the flattening of the input, the one-row bias and the bfloat16 weights (the same numbers on the extended reals)
  undone, entry (bb, s, o) of the program's result is the reference's value.
-/
import proofs.«174211_j69011534512954_2_alg».proof.Proof.Accum
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.LoraSpec Cert.KernelIdeal.Accum

variable (m : (ℓ : Loc nD τ sig) → Buf (Elt Ideal) ℓ) (ρ : Dev nD → PrngReg)

theorem last_lt : 7 < 8 := by decide

/-- The result matrix: the finished entry everywhere. -/
def out2 (c : Dev nD) : S16384x4096.Idx → EReal := fun j =>
  kernelOut (V m c main_v0) (V m c main_v2) (V m c main_arg3) (V m c main_arg4) (V m c main_v1)
    ⟨(j 0).val, (j 0).isLt⟩ ⟨(j 1).val, (j 1).isLt⟩

/-- Entry (p, q) of the output window's block at point `t` is entry (2048·(t/16) + p, 2048·(t/8%2) + q) of the matrix. -/
theorem out_block (G : S16384x4096.Idx → EReal) (t : Fin cfg0.N) (p q : Fin 2048) (R : Fin 16384) (C : Fin 4096)
    (hR : R.val = t.val / 16 * 2048 + p.val) (hC : C.val = t.val / 8 % 2 * 2048 + q.val) :
    (((cfg0.win 5).blk t).view.read (Elt Ideal) G : S2048x2048.Idx → EReal) (ix2 p q) = G (ix2 R C) := by
  rw [View.read_apply]
  refine congrArg G (funext fun a => Fin.ext ?_)
  match a with
  | ⟨0, _⟩ => show win0_5.index t 0 * 2048 + 1 * p.val = R.val; rw [(Blocks.idx_out t).1, hR]; omega
  | ⟨1, _⟩ => show win0_5.index t 1 * 2048 + 1 * q.val = C.val; rw [(Blocks.idx_out t).2, hC]; omega

/-- What a tile's last point writes back is the tile of the result matrix. -/
theorem flushed_eq (c : Dev nD) (t : Fin cfg0.N) (hf : (cfg0.win 5).flush t = true) :
    (dats m 0 c).flushed 5 t = ((cfg0.win 5).blk t).view.read (Elt Ideal) (out2 m c) := by
  have h7 : t.val % 8 = 7 := (flush0_5 t).mp hf
  have hN : t.val < 128 := lt_of_lt_of_eq t.isLt (show cfg0.N = 128 from N_0)
  obtain ⟨g, rfl⟩ : ∃ g : Fin 16, t = pt g 7 last_lt :=
    ⟨⟨t.val / 8, by omega⟩, Fin.ext (by show t.val = t.val / 8 * 8 + 7; omega)⟩
  show (cfg0.win 5).cut (grid0.coords (pt g 7 last_lt)) ((dats m 0 c).after 5 (pt g 7 last_lt)) = _
  rw [after0_5]
  show ((outsAt0 m c (pt g 7 last_lt).val (pt g 7 last_lt).isLt).1 : S2048x2048.Idx → EReal)
    = (((cfg0.win 5).blk (pt g 7 last_lt)).view.read (Elt Ideal) (out2 m c) : S2048x2048.Idx → EReal)
  funext y
  obtain ⟨p, q, rfl⟩ : ∃ (p q : Fin 2048), y = ix2 p q := ⟨y 0, y 1, eq_ix2 y⟩
  rw [out_block (out2 m c) (pt g 7 last_lt) p q (rowOf g p) (colOf g q)
    (by show g.val / 2 * 2048 + p.val = (g.val * 8 + 7) / 16 * 2048 + p.val; omega)
    (by show g.val % 2 * 2048 + q.val = (g.val * 8 + 7) / 8 % 2 * 2048 + q.val; omega)]
  exact tile_done m c g p q

/-- An index of the result matrix is in point `t`'s block iff each coordinate is in the block's range. -/
theorem mem_blk (t : Fin cfg0.N) (i : S16384x4096.Idx) :
    i ∈ ((cfg0.win 5).blk t).view.set ↔ ∀ a : Fin 2, win0_5.index t a * S2048x2048.size a ≤ (i a).val
      ∧ (i a).val < win0_5.index t a * S2048x2048.size a + S2048x2048.size a := by
  show i ∈ ((View.whole main_v3).slice (win0_5.rect t)).set ↔ _
  rw [View.set_slice_whole, Rect.mem_set_unit]
  exact Iff.rfl

/-- Every entry of the result matrix is in the block some tile's last point writes back. -/
theorem covered (i : S16384x4096.Idx) :
    ∃ t : Fin cfg0.N, (cfg0.win 5).flush t = true ∧ i ∈ ((cfg0.win 5).blk t).view.set := by
  have h0 : (i 0).val < 16384 := (i 0).isLt
  have h1 : (i 1).val < 4096 := (i 1).isLt
  have hg : (i 0).val / 2048 * 2 + (i 1).val / 2048 < 16 := by omega
  obtain ⟨e0, e1⟩ := Blocks.idx_out (pt ⟨(i 0).val / 2048 * 2 + (i 1).val / 2048, hg⟩ 7 last_lt)
  have hv : (pt ⟨(i 0).val / 2048 * 2 + (i 1).val / 2048, hg⟩ 7 last_lt).val
      = ((i 0).val / 2048 * 2 + (i 1).val / 2048) * 8 + 7 := rfl
  refine ⟨pt ⟨(i 0).val / 2048 * 2 + (i 1).val / 2048, hg⟩ 7 last_lt, (flush0_5 _).mpr (by rw [hv]; omega), ?_⟩
  rw [mem_blk]
  intro a
  match a with
  | ⟨0, _⟩ =>
    show win0_5.index _ (0 : Fin 2) * 2048 ≤ (i 0).val ∧ (i 0).val < win0_5.index _ (0 : Fin 2) * 2048 + 2048
    rw [e0, hv]; omega
  | ⟨1, _⟩ =>
    show win0_5.index _ (1 : Fin 2) * 2048 ≤ (i 1).val ∧ (i 1).val < win0_5.index _ (1 : Fin 2) * 2048 + 2048
    rw [e1, hv]; omega

/-- So the result matrix ends holding the finished entries. -/
theorem final (c : Dev nD) : (dats m 0 c).arrAt 5 cfg0.N = out2 m c :=
  (dats m 0 c).arrAt_eq_of_cover 5 (out2 m c) (flushed_eq m c) covered

/-- The program's result: the result matrix with its rows regrouped as 8 × 2048. -/
def result (c : Dev nD) : S8x2048x4096.Idx → EReal :=
  shapeCast S8x2048x4096 (out2 m c) shapeCasts_S16384x4096_S8x2048x4096

/-- The host line after the kernel leaves that in the program's result buffer. -/
theorem tail_eq (c : Dev nD) :
    Pipeline.afterTail₀ cfgs (dats m) 0 (V0 m) [hostOps1] c main_v4 = result m c := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.tc.devRef main_v3)
      = out2 m c := (Pipeline.withArrays_arr spec0 launch0.win.arr_inj c _ _ 5).trans (final m c)
  rw [hw]
  rfl

/-- The flattened input, row `2048·bb + s`, is the input at (bb, s). -/
theorem x_flat (c : Dev nD) (bb : Fin 8) (s : Fin 2048) (d : Fin 4096) :
    (V m c main_v0 (ix2 (flatRow bb s) d) : EReal) = m ((c : Thread nD τ).loc main_arg0) (ix3 bb s d) := by
  rw [Blocks.V_x]
  exact shapeCast_apply _ shapeCasts_S8x2048x4096_S16384x4096 (ix2 (flatRow bb s) d) (ix3 bb s d)
    (by rw [Shape.rowMajor_val_three, Shape.rowMajor_val_two]; rfl)

/-- The one-row bias is the bias. -/
theorem bias_row (c : Dev nD) (o : Fin 4096) :
    (V m c main_v1 (ix2 (0 : Fin 1) o) : EReal) = m ((c : Thread nD τ).loc main_arg2) (ix1 o) := by
  rw [Blocks.V_bias]
  exact shapeCast_apply _ shapeCasts_S4096_S1x4096 (ix2 (0 : Fin 1) o) (ix1 o)
    (by rw [Shape.rowMajor_val_one, Shape.rowMajor_val_two]; show o.val = 0 * 4096 + o.val; omega)

/-- The weights in bfloat16 are the weights. -/
theorem w_same (c : Dev nD) (d o : Fin 4096) :
    (V m c main_v2 (ix2 d o) : EReal) = m ((c : Thread nD τ).loc main_arg1) (ix2 d o) := by
  rw [Blocks.V_w]
  rfl

/-- The program's result at (bb, s, o) is the reference's value of the argument arrays. -/
theorem result_apply (c : Dev nD) (bb : Fin 8) (s : Fin 2048) (o : Fin 4096) :
    result m c (ix3 bb s o)
      = refOut (m ((c : Thread nD τ).loc main_arg0)) (m ((c : Thread nD τ).loc main_arg1)) (m ((c : Thread nD τ).loc main_arg2))
          (m ((c : Thread nD τ).loc main_arg3)) (m ((c : Thread nD τ).loc main_arg4)) bb s o := by
  unfold result
  rw [shapeCast_apply (out2 m c) shapeCasts_S16384x4096_S8x2048x4096 (ix3 bb s o) (ix2 (flatRow bb s) o)
    (by rw [Shape.rowMajor_val_three, Shape.rowMajor_val_two]; rfl)]
  show kernelOut (V m c main_v0) (V m c main_v2) (V m c main_arg3) (V m c main_arg4) (V m c main_v1) (flatRow bb s) o = _
  rw [V_main_arg3 m c, V_main_arg4 m c]
  exact kernelOut_eq_refOut _ _ _ _ _ _ _ _ bb s o (fun d => x_flat m c bb s d) (fun d => w_same m c d o) (bias_row m c o)

/-! ## The run -/

/-- Every weakly fair execution of the program ends with the result buffer at `result` and the arguments unchanged. -/
theorem run : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩)
    (run_main m ρ)

end Cert.KernelIdeal.Final

end
-- ==== Proof.RefValue.lean ====
/-
  The reference's result read at one entry.

  Its ten host operations are three contractions, the bias broadcast over batch and position, two additions and a
  product with the literal 1.0.  At entry (bb, s, o) they give the dense product of row (bb, s) with column o plus the
  bias entry o, plus the 16-term up-projection of that row's down-projection times 1.0.
-/
import proofs.«174211_j69011534512954_2_alg».proof.Proof.Gen.ReferenceIdeal.Read
import proofs.«174211_j69011534512954_2_alg».proof.Proof.Spec

noncomputable section

open Idealize.ShloMosaic Idealize.ShloMosaic.ValueIdx

namespace Cert.ReferenceIdeal.RefValue

open Cert.ReferenceIdeal Cert.ReferenceIdeal.Read Cert.LoraSpec

/-- The reference's stage for its result, at an entry, is the specification's reference value. -/
theorem ref_apply (x0 : (⟨S8x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x16, .f32⟩ : BufTy).Contents (Elt Ideal))
    (x4 : (⟨S16x4096, .f32⟩ : BufTy).Contents (Elt Ideal)) (bb : Fin 8) (s : Fin 2048) (o : Fin 4096) :
    (val_main_v8 (F := Ideal) x0 x1 x2 x3 x4 (ix3 bb s o) : EReal) = refOut x0 x1 x2 x3 x4 bb s o := by
  have e2l : ∀ k : Fin 4096, lidx_main_v2 (ix3 bb s o) k = ix3 bb s k := fun k => funext fun a => by
    match a with | ⟨0, _⟩ => rfl | ⟨1, _⟩ => rfl | ⟨2, _⟩ => rfl
  have e2r : ∀ k : Fin 4096, ridx_main_v2 (ix3 bb s o) k = ix2 k o := fun k => funext fun a => by
    match a with | ⟨0, _⟩ => rfl | ⟨1, _⟩ => rfl
  have e0l : ∀ (r : Fin 16) (k : Fin 4096), lidx_main_v0 (lidx_main_v1 (ix3 bb s o) r) k = ix3 bb s k :=
    fun r k => funext fun a => by match a with | ⟨0, _⟩ => rfl | ⟨1, _⟩ => rfl | ⟨2, _⟩ => rfl
  have e0r : ∀ (r : Fin 16) (k : Fin 4096), ridx_main_v0 (lidx_main_v1 (ix3 bb s o) r) k = ix2 k r :=
    fun r k => funext fun a => by match a with | ⟨0, _⟩ => rfl | ⟨1, _⟩ => rfl
  have e1r : ∀ r : Fin 16, ridx_main_v1 (ix3 bb s o) r = ix2 r o := fun r => funext fun a => by
    match a with | ⟨0, _⟩ => rfl | ⟨1, _⟩ => rfl
  have e3 : idx_main_v3 (idx_main_v4 (ix3 bb s o)) = ix1 o := funext fun a => by
    match a with | ⟨0, _⟩ => rfl
  rw [val_main_v8_apply, val_main_v5_apply, val_main_v7_apply, val_main_v2_apply, val_main_v4_apply, val_main_v3_apply,
    val_main_v1_apply, val_main_v6_apply, val_main_cst_apply]
  simp only [val_main_v0_apply, e2l, e2r, e0l, e0r, e1r, e3]
  rfl

end Cert.ReferenceIdeal.RefValue

end
-- ==== Proof.lean ====
/-
  A LoRA-fused dense layer, out = x·W + b + ((x·A)·B)·1, over x of shape [8, 2048, 4096], W [4096, 4096], b [4096],
  A [4096, 16], B [16, 4096].

  The kernel flattens x to 16384 rows and walks a grid of 8 × 2 output tiles of 2048 × 2048, each over eight runs of 512
  along the contraction axis.  Along the runs of a tile it accumulates the dense products x·W (the weights converted to
  bfloat16, the same numbers on the extended reals) into the output block and the down-projection products x·A into a
  2048 × 16 accumulator, both started from zero at the first run; at the last run it adds the bias row and the
  up-projection of the finished accumulator times 1.0.  The reference computes whole contractions.  On the extended
  reals the two differ only by the grouping of sums: a sum over 4096 positions is the sum of its eight runs, and
  (s + (b + l)) = ((s + b) + l).  No finiteness of the inputs is used.

  The modules: Spec (the two formulas and the law between them), Pieces and Payloads (what one run of the body stores,
  as values), Blocks (where each block sits in its array, what the host prepared), Accum (the running sums, by induction
  along a tile's runs), Final (the result matrix from the run, regrouped, against the reference's formula), RefValue (the
  reference's ten operations at an entry).
-/
import proofs.«174211_j69011534512954_2_alg».proof.Defs
import proofs.«174211_j69011534512954_2_alg».proof.Proof.Gen.Kernel
import proofs.«174211_j69011534512954_2_alg».proof.Proof.Gen.Kernel.Skeleton
import proofs.«174211_j69011534512954_2_alg».proof.Proof.Gen.Kernel.Launch
import proofs.«174211_j69011534512954_2_alg».proof.Proof.Gen.Kernel.Points
import proofs.«174211_j69011534512954_2_alg».proof.Proof.Gen.Kernel.Frame
import proofs.«174211_j69011534512954_2_alg».proof.Proof.Gen.KernelIdeal
import proofs.«174211_j69011534512954_2_alg».proof.Proof.Gen.KernelIdeal.Skeleton
import proofs.«174211_j69011534512954_2_alg».proof.Proof.Gen.KernelIdeal.Launch
import proofs.«174211_j69011534512954_2_alg».proof.Proof.Gen.KernelIdeal.Points
import proofs.«174211_j69011534512954_2_alg».proof.Proof.Gen.KernelIdeal.Frame
import proofs.«174211_j69011534512954_2_alg».proof.Proof.Gen.ReferenceIdeal
import proofs.«174211_j69011534512954_2_alg».proof.Proof.Gen.Pre_finite_inputs
import proofs.«174211_j69011534512954_2_alg».proof.Proof.Gen.ReferenceIdeal.Run
import proofs.«174211_j69011534512954_2_alg».proof.Proof.Gen.ReferenceIdeal.Read
import proofs.«174211_j69011534512954_2_alg».proof.Proof.Final
import proofs.«174211_j69011534512954_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel's text was rewritten for the reading on the extended reals. -/
theorem preserves : Cert.preserves_Kernel_KernelIdeal := trivial

/-- The kernel's result array is the reference's result array of the same arguments: entry by entry both are the
    specification's reference value. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v8 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Final.result m c := by
  funext i
  obtain ⟨bb, s, o, rfl⟩ : ∃ (bb : Fin 8) (s : Fin 2048) (o : Fin 4096), i = ix3 bb s o := ⟨i 0, i 1, i 2, eq_ix3 i⟩
  rw [Cert.ReferenceIdeal.RefValue.ref_apply]
  exact (Cert.KernelIdeal.Final.result_apply m c bb s o).symm

/-- From memories that agree on the five arguments, both programs run and end with equal results. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2.1, (hagree c).2.2.1, (hagree c).2.2.2.1,
    (hagree c).2.2.2.2]
  exact result_eq m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
